-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S400000 : Shape := ⟨1, ![400000]⟩
abbrev S400000x1 : Shape := ⟨2, ![400000, 1]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S400000 : S_.BroadcastsInDim S400000 (![] : Fin 0 → Fin S400000.rank)
  reducesTo_S400000_S_d0 : S400000.ReducesTo [0] S_
  bcast_S_S400000x1 : S_.BroadcastsInDim S400000x1 (![] : Fin 0 → Fin S400000x1.rank)
  reducesTo_S400000x1_S_d0_1 : S400000x1.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S64 .f32) (main_arg7 : FVec F S64x1 .f32) (main_arg8 : FVec F S1 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S400000 32) (main_arg2 : IVec S400000 32) (main_arg3 : FVec F S400000 .f32) (main_arg4 : FVec F S400000x1 .f32) (main_arg5 : FVec F S256x64 .f32) (main_arg6 : FVec F S64 .f32) (main_arg7 : FVec F S64x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S400000 .f32 := Host.absf main_arg3
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S400000x1 .f32 := Host.absf main_arg4
  let main_cst_2 : FVec F S_ .f32 := constant S_ .f32 0x7F800000#32
  let main_v10 : FVec F S400000x1 .f32 := broadcastInDim S400000x1 ![] bcast_S_S400000x1 main_cst_2
  let main_v11 : IVec S400000x1 1 := cmpf .olt main_v9 main_v10
  let main_c_3 : IVec S_ 1 := constantI S_ 1 1#1
  let main_v12 : IVec S_ 1 := (fun x v => Host.reduce IntOp.andi x v reducesTo_S400000x1_S_d0_1 h_S_) main_v11 main_c_3
  let main_v13 : IVec S_ 1 := andi main_v8 main_v12
  let main_v14 : FVec F S256x64 .f32 := Host.absf main_arg5
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg6 main_arg7 main_arg8 main_v13 main_v16
-- ==== Kernel.lean ====
abbrev S100000x128 : Shape := ⟨2, ![100000, 128]⟩
abbrev S400000 : Shape := ⟨1, ![400000]⟩
abbrev S400000x1 : Shape := ⟨2, ![400000, 1]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩
abbrev S400000x128 : Shape := ⟨2, ![400000, 128]⟩
abbrev S1x400000 : Shape := ⟨2, ![1, 400000]⟩
abbrev S128x64 : Shape := ⟨2, ![128, 64]⟩
abbrev S16000x128 : Shape := ⟨2, ![16000, 128]⟩
abbrev S1x16000 : Shape := ⟨2, ![1, 16000]⟩
abbrev S16000x64 : Shape := ⟨2, ![16000, 64]⟩
abbrev S1x64 : Shape := ⟨2, ![1, 64]⟩
abbrev S16000 : Shape := ⟨1, ![16000]⟩
abbrev S800000 : Shape := ⟨1, ![800000]⟩

abbrev nBuf : Space → Nat
  | .hbm => 43
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S400000, .i32⟩
  | .hbm, ⟨2, _⟩ => ⟨S400000, .i32⟩
  | .hbm, ⟨3, _⟩ => ⟨S400000, .f32⟩
  | .hbm, ⟨4, _⟩ => ⟨S400000x1, .f32⟩
  | .hbm, ⟨5, _⟩ => ⟨S256x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S100000x128, .bf16⟩
  | .hbm, ⟨10, _⟩ => ⟨S_, .i32⟩
  | .hbm, ⟨11, _⟩ => ⟨S400000, .i32⟩
  | .hbm, ⟨12, _⟩ => ⟨S400000, .i1⟩
  | .hbm, ⟨13, _⟩ => ⟨S_, .i32⟩
  | .hbm, ⟨14, _⟩ => ⟨S400000, .i32⟩
  | .hbm, ⟨15, _⟩ => ⟨S400000, .i32⟩
  | .hbm, ⟨16, _⟩ => ⟨S400000, .i32⟩
  | .hbm, ⟨17, _⟩ => ⟨S400000x1, .i32⟩
  | .hbm, ⟨18, _⟩ => ⟨S400000x128, .bf16⟩
  | .hbm, ⟨19, _⟩ => ⟨S_, .i32⟩
  | .hbm, ⟨20, _⟩ => ⟨S400000, .i32⟩
  | .hbm, ⟨21, _⟩ => ⟨S400000, .i1⟩
  | .hbm, ⟨22, _⟩ => ⟨S_, .i32⟩
  | .hbm, ⟨23, _⟩ => ⟨S400000, .i32⟩
  | .hbm, ⟨24, _⟩ => ⟨S400000, .i32⟩
  | .hbm, ⟨25, _⟩ => ⟨S400000, .i32⟩
  | .hbm, ⟨26, _⟩ => ⟨S400000x1, .i32⟩
  | .hbm, ⟨27, _⟩ => ⟨S400000x128, .bf16⟩
  | .hbm, ⟨28, _⟩ => ⟨S1x400000, .f32⟩
  | .hbm, ⟨29, _⟩ => ⟨S1x400000, .f32⟩
  | .hbm, ⟨30, _⟩ => ⟨S128x64, .f32⟩
  | .hbm, ⟨31, _⟩ => ⟨S128x64, .bf16⟩
  | .hbm, ⟨32, _⟩ => ⟨S128x64, .f32⟩
  | .hbm, ⟨33, _⟩ => ⟨S128x64, .bf16⟩
  | .hbm, ⟨34, _⟩ => ⟨S64, .f32⟩
  | .hbm, ⟨35, _⟩ => ⟨S1x400000, .f32⟩
  | .hbm, ⟨36, _⟩ => ⟨S1x400000, .f32⟩
  | .hbm, ⟨37, _⟩ => ⟨S400000, .f32⟩
  | .hbm, ⟨38, _⟩ => ⟨S800000, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S16000x128, .bf16⟩
  | .local _ .vmem, ⟨1, _⟩ => ⟨S16000x128, .bf16⟩
  | .local _ .vmem, ⟨2, _⟩ => ⟨S16000x128, .bf16⟩
  | .local _ .vmem, ⟨3, _⟩ => ⟨S16000x128, .bf16⟩
  | .local _ .vmem, ⟨4, _⟩ => ⟨S1x16000, .f32⟩
  | .local _ .vmem, ⟨5, _⟩ => ⟨S1x16000, .f32⟩
  | .local _ .vmem, ⟨6, _⟩ => ⟨S1x16000, .f32⟩
  | .local _ .vmem, ⟨7, _⟩ => ⟨S1x16000, .f32⟩
  | .local _ .vmem, ⟨8, _⟩ => ⟨S128x64, .bf16⟩
  | .local _ .vmem, ⟨9, _⟩ => ⟨S128x64, .bf16⟩
  | .local _ .vmem, ⟨10, _⟩ => ⟨S64, .f32⟩
  | .local _ .vmem, ⟨11, _⟩ => ⟨S64, .f32⟩
  | .local _ .vmem, ⟨12, _⟩ => ⟨S1, .f32⟩
  | .local _ .vmem, ⟨13, _⟩ => ⟨S1x16000, .f32⟩
  | .local _ .vmem, ⟨14, _⟩ => ⟨S1x16000, .f32⟩
  | .local _ .vmem, ⟨15, _⟩ => ⟨S1x16000, .f32⟩
  | .local _ .vmem, ⟨16, _⟩ => ⟨S1x16000, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22_0 : Ref sig .tc := ⟨.hbm, 35, rfl⟩
abbrev main_v22_1 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x16000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16000 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  bcast_S_S400000 : S_.BroadcastsInDim S400000 (![] : Fin 0 → Fin S400000.rank)
  bcast_S400000_S400000x1_0 : S400000.BroadcastsInDim S400000x1 (![0] : Fin 1 → Fin S400000x1.rank)
  shapeCasts_S400000_S1x400000 : S400000.ShapeCasts S1x400000
  shapeCasts_S400000x1_S1x400000 : S400000x1.ShapeCasts S1x400000
  slices_S256x64_S128x64_0_0 : S256x64.Slices ![0, 0] S128x64
  slices_S256x64_S128x64_128_0 : S256x64.Slices ![128, 0] S128x64
  shapeCasts_S64x1_S64 : S64x1.ShapeCasts S64
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S16000x64 : S1x64.Broadcasts S16000x64
  shapeCasts_S64_S64 : S64.ShapeCasts S64
  inb_S1_S1_0 : ∀ a, (![0] : Fin 1 → Nat) a + S1.size a ≤ S1.size a
  h_S1 : 0 < S1.numel
  reduces_S16000x64_S16000 : S16000x64.Reduces [1] S16000
  inpos_S1_p0 : ∀ a, (![0] : Fin 1 → Nat) a < S1.size a
  shapeCasts_S16000_S1x16000 : S16000.ShapeCasts S1x16000
  inb_S1x16000_S1x16000_0_0 : ∀ a, (![0, 0] : Fin 2 → Nat) a + S1x16000.size a ≤ S1x16000.size a
  h_S1x16000 : 0 < S1x16000.numel
  shapeCasts_S1x16000_S1x16000 : S1x16000.ShapeCasts S1x16000
  shapeCasts_S1x400000_S400000 : S1x400000.ShapeCasts S400000
  concatenates_S400000_S400000_S800000_d0 : Shape.Concatenates [S400000, S400000] S800000 0
  reducesTo_S1x400000_S_d0_1 : S1x400000.ReducesTo [0, 1] S_
  h_S_ : 0 < S_.numel
  gather_S100000x128_S400000x1_S400000x128_1_0_n_n_0_1_1128_wf : GatherDims.WF S100000x128 S400000x1 S400000x128 [1] [0] [] [0] [] 1 ![1, 128]
  dot_S16000x128_S128x64_S16000x64_1_0_0_1_n_n_wf : DotDims.WF S16000x128 S128x64 S16000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x128.size a ≤ S400000x128.size a
  hwx0_0 : ∀ i : grid0.Coords, EltTy.bits .bf16 = 32 ∨ (Rect.block (s := S400000x128) S16000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x128.size a ≤ S400000x128.size a
  hwx0_1 : ∀ i : grid0.Coords, EltTy.bits .bf16 = 32 ∨ (Rect.block (s := S400000x128) S16000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16000.size a ≤ S1x400000.size a
  hwx0_2 : ∀ i : grid0.Coords, EltTy.bits .f32 = 32 ∨ (Rect.block (s := S1x400000) S1x16000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16000.size a ≤ S1x400000.size a
  hwx0_3 : ∀ i : grid0.Coords, EltTy.bits .f32 = 32 ∨ (Rect.block (s := S1x400000) S1x16000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .bf16 = 32 ∨ (Rect.block (s := S128x64) S128x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x16000.size a ≤ S1x400000.size a
  hwx0_9 : ∀ i : grid0.Coords, EltTy.bits .f32 = 32 ∨ (Rect.block (s := S1x400000) S1x16000.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x16000.size a ≤ S1x400000.size a
  hwx0_10 : ∀ i : grid0.Coords, EltTy.bits .f32 = 32 ∨ (Rect.block (s := S1x400000) S1x16000.size (cc0_transform_10 i) (hinb0_10 i)).WholeWords (EltTy.packing .f32)

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S16000x128_S128x64_S16000x64_1_0_0_1_n_n : DotDims S16000x128 S128x64 S16000x64 where
  lhsContracting := [1]
  rhsContracting := [0]
  lhsNonContracting := [0]
  rhsNonContracting := [1]
  lhsBatch := []
  rhsBatch := []
  wf := dot_S16000x128_S128x64_S16000x64_1_0_0_1_n_n_wf

abbrev win0_0 : Pipeline.Window sig grid0 :=
  Pipeline.Window.ofSpec (Memref.whole main_v7) S16000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S16000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x16000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x16000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22_0) S1x16000.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v22_1) S1x16000.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x128 : Shape := ⟨2, ![100000, 128]⟩
abbrev S400000 : Shape := ⟨1, ![400000]⟩
abbrev S400000x1 : Shape := ⟨2, ![400000, 1]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩
abbrev S400000x128 : Shape := ⟨2, ![400000, 128]⟩
abbrev S400000x256 : Shape := ⟨2, ![400000, 256]⟩
abbrev S400000x64 : Shape := ⟨2, ![400000, 64]⟩
abbrev S1x64 : Shape := ⟨2, ![1, 64]⟩
abbrev S1x1 : Shape := ⟨2, ![1, 1]⟩
abbrev S800000 : Shape := ⟨1, ![800000]⟩

abbrev nBuf : Space → Nat
  | .hbm => 68
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S400000, .i32⟩
  | .hbm, ⟨2, _⟩ => ⟨S400000, .i32⟩
  | .hbm, ⟨3, _⟩ => ⟨S400000, .f32⟩
  | .hbm, ⟨4, _⟩ => ⟨S400000x1, .f32⟩
  | .hbm, ⟨5, _⟩ => ⟨S256x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S_, .i32⟩
  | .hbm, ⟨10, _⟩ => ⟨S400000, .i32⟩
  | .hbm, ⟨11, _⟩ => ⟨S400000, .i1⟩
  | .hbm, ⟨12, _⟩ => ⟨S_, .i32⟩
  | .hbm, ⟨13, _⟩ => ⟨S400000, .i32⟩
  | .hbm, ⟨14, _⟩ => ⟨S400000, .i32⟩
  | .hbm, ⟨15, _⟩ => ⟨S400000, .i32⟩
  | .hbm, ⟨16, _⟩ => ⟨S400000x1, .i32⟩
  | .hbm, ⟨17, _⟩ => ⟨S400000x128, .f32⟩
  | .hbm, ⟨18, _⟩ => ⟨S_, .i32⟩
  | .hbm, ⟨19, _⟩ => ⟨S400000, .i32⟩
  | .hbm, ⟨20, _⟩ => ⟨S400000, .i1⟩
  | .hbm, ⟨21, _⟩ => ⟨S_, .i32⟩
  | .hbm, ⟨22, _⟩ => ⟨S400000, .i32⟩
  | .hbm, ⟨23, _⟩ => ⟨S400000, .i32⟩
  | .hbm, ⟨24, _⟩ => ⟨S400000, .i32⟩
  | .hbm, ⟨25, _⟩ => ⟨S400000x1, .i32⟩
  | .hbm, ⟨26, _⟩ => ⟨S400000x128, .f32⟩
  | .hbm, ⟨27, _⟩ => ⟨S400000x256, .f32⟩
  | .hbm, ⟨28, _⟩ => ⟨S400000x64, .f32⟩
  | .hbm, ⟨29, _⟩ => ⟨S1x64, .f32⟩
  | .hbm, ⟨30, _⟩ => ⟨S400000x64, .f32⟩
  | .hbm, ⟨31, _⟩ => ⟨S400000x64, .f32⟩
  | .hbm, ⟨32, _⟩ => ⟨S_, .f32⟩
  | .hbm, ⟨33, _⟩ => ⟨S400000x64, .f32⟩
  | .hbm, ⟨34, _⟩ => ⟨S400000x64, .f32⟩
  | .hbm, ⟨35, _⟩ => ⟨S400000x1, .f32⟩
  | .hbm, ⟨36, _⟩ => ⟨S1x1, .f32⟩
  | .hbm, ⟨37, _⟩ => ⟨S400000x1, .f32⟩
  | .hbm, ⟨38, _⟩ => ⟨S400000x1, .f32⟩
  | .hbm, ⟨39, _⟩ => ⟨S_, .f32⟩
  | .hbm, ⟨40, _⟩ => ⟨S400000x1, .f32⟩
  | .hbm, ⟨41, _⟩ => ⟨S400000x1, .f32⟩
  | .hbm, ⟨42, _⟩ => ⟨S_, .f32⟩
  | .hbm, ⟨43, _⟩ => ⟨S400000x1, .f32⟩
  | .hbm, ⟨44, _⟩ => ⟨S400000x1, .f32⟩
  | .hbm, ⟨45, _⟩ => ⟨S400000x1, .f32⟩
  | .hbm, ⟨46, _⟩ => ⟨S400000x1, .f32⟩
  | .hbm, ⟨47, _⟩ => ⟨S400000x1, .f32⟩
  | .hbm, ⟨48, _⟩ => ⟨S400000x1, .f32⟩
  | .hbm, ⟨49, _⟩ => ⟨S400000x1, .f32⟩
  | .hbm, ⟨50, _⟩ => ⟨S_, .f32⟩
  | .hbm, ⟨51, _⟩ => ⟨S400000x1, .f32⟩
  | .hbm, ⟨52, _⟩ => ⟨S400000x1, .f32⟩
  | .hbm, ⟨53, _⟩ => ⟨S400000x1, .f32⟩
  | .hbm, ⟨54, _⟩ => ⟨S400000x1, .f32⟩
  | .hbm, ⟨55, _⟩ => ⟨S_, .f32⟩
  | .hbm, ⟨56, _⟩ => ⟨S400000x1, .f32⟩
  | .hbm, ⟨57, _⟩ => ⟨S400000x1, .f32⟩
  | .hbm, ⟨58, _⟩ => ⟨S_, .f32⟩
  | .hbm, ⟨59, _⟩ => ⟨S400000x1, .f32⟩
  | .hbm, ⟨60, _⟩ => ⟨S400000x1, .f32⟩
  | .hbm, ⟨61, _⟩ => ⟨S400000, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S400000, .f32⟩
  | .hbm, ⟨67, _⟩ => ⟨S800000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x256_d1 : Shape.Concatenates [S400000x128, S400000x128] S400000x256 1
  bcast_S64_S1x64_1 : S64.BroadcastsInDim S1x64 (![1] : Fin 1 → Fin S1x64.rank)
  bcast_S1x64_S400000x64_0_1 : S1x64.BroadcastsInDim S400000x64 (![0, 1] : Fin 2 → Fin S400000x64.rank)
  bcast_S_S400000x64 : S_.BroadcastsInDim S400000x64 (![] : Fin 0 → Fin S400000x64.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  bcast_S_S400000x1 : S_.BroadcastsInDim S400000x1 (![] : Fin 0 → Fin S400000x1.rank)
  shapeCasts_S400000x1_S400000 : S400000x1.ShapeCasts S400000
  reducesTo_S400000_S_d0 : S400000.ReducesTo [0] S_
  h_S_ : 0 < S_.numel
  concatenates_S400000_S400000_S800000_d0 : Shape.Concatenates [S400000, S400000] S800000 0
  gather_S100000x128_S400000x1_S400000x128_1_0_n_n_0_1_1128_wf : GatherDims.WF S100000x128 S400000x1 S400000x128 [1] [0] [] [0] [] 1 ![1, 128]
  dot_S400000x256_S256x64_S400000x64_1_0_0_1_n_n_wf : DotDims.WF S400000x256 S256x64 S400000x64 [1] [0] [0] [1] [] []
  dot_S400000x64_S64x1_S400000x1_1_0_0_1_n_n_wf : DotDims.WF S400000x64 S64x1 S400000x1 [1] [0] [0] [1] [] []

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S400000x256_S256x64_S400000x64_1_0_0_1_n_n : DotDims S400000x256 S256x64 S400000x64 where
  lhsContracting := [1]
  rhsContracting := [0]
  lhsNonContracting := [0]
  rhsNonContracting := [1]
  lhsBatch := []
  rhsBatch := []
  wf := dot_S400000x256_S256x64_S400000x64_1_0_0_1_n_n_wf
def dot_S400000x64_S64x1_S400000x1_1_0_0_1_n_n : DotDims S400000x64 S64x1 S400000x1 where
  lhsContracting := [1]
  rhsContracting := [0]
  lhsNonContracting := [0]
  rhsNonContracting := [1]
  lhsBatch := []
  rhsBatch := []
  wf := dot_S400000x64_S64x1_S400000x1_1_0_0_1_n_n_wf

class Facts : Prop extends Facts₀ where

variable [Facts]
-- ==== Proof.LibRowGather.lean ====
/-
  Gathering whole rows of a table.  For a table `x : [N, C]` and a column of start indices `idx : [E, 1]`,
  the gather with offset axis 1, collapsed axis 0, start-index map [0], index-vector axis 1 and slices of one
  row ([1, C]) reads, at result index (e, j), the table at row `idx[e, 0]` — the index word read signed and
  clamped into [0, N - 1], as every gather clamps its start indices — and column j.  This is what `x[idx]`
  of a two-axis table at a flat integer array lowers to.
-/
import Idealize.ShloMosaic.Lib.ValueIdx

noncomputable section

namespace Idealize.ShloMosaic.RowGather

open Idealize.ShloMosaic Idealize.ShloMosaic.ValueIdx

variable {α : Type}

/-- The dimension numbers of a row gather from a table [N, C] at start indices [E, 1] into [E, C]; their
    conditions `wf` are decided on a program's literal shapes. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word names in a table of `N` rows: the word read signed, clamped into [0, N - 1]. -/
def clampRow (N : Nat) (hN : 0 < N) {w : Nat} (v : BitVec w) : Fin N :=
  ⟨min v.toInt.toNat (N - 1), by omega⟩

/-- THE ROW GATHER READ AT (e, j): the table at the clamped row `idx[e, 0]` and column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N E C wf) x idx (ix2 e j)
      = x (ix2 (clampRow N hN (idx (ix2 e (0 : Fin 1)))) j) := by
  unfold Host.gather
  congr 1
  funext a
  refine Fin.ext ?_
  match a with
  | ⟨0, _⟩ =>
    show (rowDims N E C wf).start (ix2 e j) idx 0 + (rowDims N E C wf).batchCoord (ix2 e j) 0
      + (rowDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e j) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e j) idx 1 + (rowDims N E C wf).batchCoord (ix2 e j) 1
      + (rowDims N E C wf).offCoord (ix2 e j) 1 = j.val
    rw [GatherDims.batchCoord_eq_zero _ _ _ List.not_mem_nil]
    unfold GatherDims.start
    rw [dif_neg (show (1 : Fin 2) ∉ (rowDims N E C wf).startIndexMap from
      fun h => absurd (show (1 : Nat) = 0 from congrArg Fin.val (List.mem_singleton.mp h)) Nat.one_ne_zero)]
    unfold GatherDims.offCoord
    rw [dif_pos (show (1 : Fin 2) ∈ (rowDims N E C wf).sKept from (GatherDims.mem_sKept _ _).mpr
      ⟨fun h => absurd (show (1 : Nat) = 0 from congrArg Fin.val (List.mem_singleton.mp h)) Nat.one_ne_zero, List.not_mem_nil⟩)]
    simp only [Nat.zero_add]
    rfl

end Idealize.ShloMosaic.RowGather

end
-- ==== Proof.Gate.lean ====
/-
  The gate of one edge, on the extended reals.

  An edge has a source row s and a destination row d of the embedding table (128 entries each). The first layer
  has weights W1 (256 × 64, its top half ws multiplying s, its bottom half wd multiplying d) and bias b1; a hidden
  unit is max(s·ws + d·wd + b1, 0). The second layer is one column w2 and a bias b2: the edge's logit is
  h·w2 + b2. The uniform sample u is squeezed into (0, 1) as e = c₁·u + c₂ and gives the logistic noise
  log e − log(1 − e); the gate is the logistic function of (noise + logit) / 1.

  Over the whole problem there are 400000 edges; edge e takes its two rows of the table at the rows its source
  and destination index words name (a negative word counted from the end of the table, then the row clamped into
  the table, as an array lookup does), its sample u at (e, 0), and the shared weights. `gateOf` is that gate as
  ONE function of the nine input arrays and the edge; the two results of the computation are the values
  vals(e) · gate(e), laid out twice in a row, and the mean (0 + Σₑ gate(e)) / 400000.

  Everything here is written with the exact operations of the extended reals (with their conventions at the
  infinities), so the statements hold for every input, finite or not. Three small laws relate spellings of the
  same value: a sum over 256 terms is the sum of its two halves; 0 − x is −x; and the logistic function is
  1 / (1 + exp(−x)) with the float word of one read as the number one.
-/
import Idealize.ShloMosaic.PureOps.Ideal.Laws
import Idealize.ShloMosaic.Lib.IdealHost
import Idealize.ShloMosaic.Lib.ValueIdx
import proofs.«146013_j16724602651079_2_alg».proof.Proof.LibRowGather
import Mathlib.Algebra.BigOperators.Fin

noncomputable section

namespace Cert.EdgeGate

open Idealize.ShloMosaic Idealize.ShloMosaic.ValueIdx Idealize.ShloMosaic.RowGather
open scoped BigOperators

/-- Hidden unit j of an edge: the two half products added, plus the bias, cut off below at the float zero. -/
def hidden (s d : Fin 128 → EReal) (ws wd : Fin 128 → Fin 64 → EReal) (b : Fin 64 → EReal) (j : Fin 64) : EReal :=
  max (((∑ k : Fin 128, s k * ws k j) + ∑ k : Fin 128, d k * wd k j) + b j) (Ideal.ofBits .f32 0x00000000#32)

/-- The edge's logit: the hidden units against the second layer's column, plus its bias. -/
def logit (h w : Fin 64 → EReal) (b : EReal) : EReal := (∑ j : Fin 64, h j * w j) + b

/-- The uniform sample squeezed away from 0 and 1: c₁·u + c₂ with the two float literals of the programs. -/
def relaxed (u : EReal) : EReal := Ideal.ofBits .f32 0xBF7FF2E5#32 * u + Ideal.ofBits .f32 0x3F7FF972#32

/-- The logistic noise log e − log(1 + (0 − e)) of the squeezed sample e. -/
def noise (u : EReal) : EReal :=
  Ideal.log (relaxed u) - Ideal.log1p (Ideal.ofBits .f32 0x00000000#32 - relaxed u)

/-- The gate: the logistic function of (noise + logit) divided by the temperature, the float one. -/
def gate (u l : EReal) : EReal :=
  Ideal.logistic (Ideal.div (noise u + l) (Ideal.ofBits .f32 0x3F800000#32))

/-- The table row an index word names: a negative word is counted from the end of the 100000 rows, and the
    result is clamped into the table. -/
def rowOf (w : BitVec 32) : Fin 100000 :=
  clampRow 100000 (by decide) (Scalar.select (IntOp.cmpi .slt w 0#32) (IntOp.addi w 100000#32) w)

/-- Row k of the first layer's top half, as a row of the whole 256-row matrix. -/
def topRow (k : Fin 128) : Fin 256 := ⟨k.val, by omega⟩
/-- Row k of the first layer's bottom half, as a row of the whole 256-row matrix. -/
def botRow (k : Fin 128) : Fin 256 := ⟨128 + k.val, by omega⟩

/-- THE GATE OF EDGE e as one function of the input arrays: the embedding table T, the source and destination
    index words, the samples U, and the two layers' weights and biases. -/
def gateOf (T : (⟨2, ![100000, 128]⟩ : Shape).Idx → EReal) (src dst : (⟨1, ![400000]⟩ : Shape).Idx → BitVec 32)
    (U : (⟨2, ![400000, 1]⟩ : Shape).Idx → EReal) (W1 : (⟨2, ![256, 64]⟩ : Shape).Idx → EReal)
    (b1 : (⟨1, ![64]⟩ : Shape).Idx → EReal) (W2 : (⟨2, ![64, 1]⟩ : Shape).Idx → EReal)
    (b2 : (⟨1, ![1]⟩ : Shape).Idx → EReal) (e : Fin 400000) : EReal :=
  gate (U (ix2 e (0 : Fin 1)))
    (logit
      (hidden (fun k => T (ix2 (rowOf (src (ix1 e))) k)) (fun k => T (ix2 (rowOf (dst (ix1 e))) k))
        (fun k j => W1 (ix2 (topRow k) j)) (fun k j => W1 (ix2 (botRow k) j)) (fun j => b1 (ix1 j)))
      (fun j => W2 (ix2 j (0 : Fin 1))) (b2 (ix1 (0 : Fin 1))))

/-- A sum of 256 terms is the sum over the top rows plus the sum over the bottom rows. -/
theorem sum_top_bot {M : Type*} [AddCommMonoid M] (f : Fin 256 → M) :
    ∑ k : Fin 256, f k = (∑ k : Fin 128, f (topRow k)) + ∑ k : Fin 128, f (botRow k) := by
  rw [show (∑ k : Fin 256, f k) = ∑ k : Fin (128 + 128), f k from rfl, Fin.sum_univ_add]
  rfl

/-- A sum of 256 terms is the sum of its first 128 plus the sum of its last 128, in any commutative monoid. -/
theorem sum_two_halves {M : Type*} [AddCommMonoid M] (f : Fin 256 → M) :
    ∑ k : Fin 256, f k = (∑ k : Fin 128, f (Fin.castAdd 128 k)) + ∑ k : Fin 128, f (Fin.natAdd 128 k) :=
  Fin.sum_univ_add (M := M) (a := 128) (b := 128) f

/-- The noise with the negation written as −e instead of 0 − e. -/
theorem noise_neg (u : EReal) : Ideal.log (relaxed u) - Ideal.log1p (-(relaxed u)) = noise u := by
  unfold noise
  rw [Ideal.ofBits_zero_f32, zero_sub]

/-- The gate with the logistic function spelt 1 / (1 + exp(−x)), each one the float word of one. -/
theorem gate_spelt (u l : EReal) :
    Ideal.div (Ideal.ofBits .f32 0x3F800000#32)
        (Ideal.ofBits .f32 0x3F800000#32 + Ideal.exp (-(Ideal.div (noise u + l) (Ideal.ofBits .f32 0x3F800000#32))))
      = gate u l := by
  unfold gate Ideal.logistic
  rw [Ideal.ofBits_one_f32]

end Cert.EdgeGate

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.KernelPoint.lean ====
/-
  What the kernel's body computes for one edge of a block.

  A grid point holds a block of 16000 edges: their source rows x0 and destination rows x1 (16000 × 128), their
  values x2 and samples x3 (1 × 16000), and the shared weights: the two halves x4, x5 of the first layer
  (128 × 64 each), its bias x6, the second layer's column x7 as a vector of 64, and its bias x8. The body forms
  the two half products on the matrix unit and adds them, adds the bias along every row, cuts off at zero,
  multiplies by the second layer's column along every row and sums over the 64 lanes, adds the second bias, and
  lays the 16000 logits out as a row; from the samples it forms the logistic noise; the gate is the logistic
  function of their sum divided by one, and the output is the values times the gate.

  Read at edge r of the block, the logit is `logit (hidden …)` of rows r of x0 and x1, the noise is
  `noise (x3 (0, r))`, the second output is `gate` of the two and the first output is x2 (0, r) times it: at
  the ideal values a product on the matrix unit into a zero accumulator and a lane sum are plain sums.
-/
import proofs.«146013_j16724602651079_2_alg».proof.Proof.Gen.KernelIdeal.Skeleton
import proofs.«146013_j16724602651079_2_alg».proof.Proof.Gate
import proofs.«146013_j16724602651079_2_alg».proof.Proof.LibColumns
import proofs.«146013_j16724602651079_2_alg».proof.Proof.LibRows
import proofs.«146013_j16724602651079_2_alg».proof.Proof.LibPlainDot
import Idealize.ShloMosaic.Lib.Pipeline.Value
import Idealize.ShloMosaic.Lib.ValueIdx

noncomputable section

namespace Cert.KernelIdeal.Point

open Cert.KernelIdeal Cert.KernelIdeal.Gen Idealize.ShloMosaic Idealize.ShloMosaic.ValueIdx Cert.EdgeGate
open scoped BigOperators

/-- The body's two products are plain "rows × contraction times contraction × columns" products. -/
theorem dot_plain : dot_S16000x128_S128x64_S16000x64_1_0_0_1_n_n = DotDims.plain 16000 128 64 := rfl

variable (x0 x1 : Vec Ideal S16000x128 .bf16) (x2 x3 : Vec Ideal S1x16000 .f32) (x4 x5 : Vec Ideal S128x64 .bf16)
  (x6 x7 : Vec Ideal S64 .f32) (x8 : Vec Ideal S1 .f32)

/-- The logit of edge r of the block, as the body lays it out in its row of logits. -/
def blockLogit (r : Fin 16000) : EReal :=
  logit (hidden (fun k => x0 (ix2 r k)) (fun k => x1 (ix2 r k)) (fun k j => x4 (ix2 k j)) (fun k j => x5 (ix2 k j))
      (fun j => x6 (ix1 j))) (fun j => x7 (ix1 j)) (x8 (ix1 0))

/-- THE LOGITS: the body's row of logits at (0, r) is the logit of edge r — the lane sum over the 64 hidden
    units of max(x0·x4 + x1·x5 + x6, 0) · x7, plus x8. -/
theorem logit_apply (r : Fin 16000) :
    k0_pay3 x0 x1 x4 x5 x6 x7 x8 (ix2 (0 : Fin 1) r) = blockLogit x0 x1 x4 x5 x6 x7 x8 r := by
  unfold k0_pay3 blockLogit
  dsimp only
  simp only [shapeCast_self]
  refine (Cert.Lib.Rows.shapeCast_vec_row_apply _ _ r).trans ?_
  simp only [addf_apply, broadcast_apply]
  unfold logit
  refine congrArg₂ (· + ·) ?_ ?_
  · refine (Cert.Columns.laneSum_apply _ _ _ _ _ r).trans (Finset.sum_congr rfl fun j _ => ?_)
    simp only [mulf_apply, maximumf_apply, addf_apply, broadcast_apply]
    rw [Cert.Lib.Rows.broadcastTo_row_apply, Cert.Lib.Rows.broadcastTo_row_apply,
      Cert.Lib.Rows.shapeCast_vec_row_apply, Cert.Lib.Rows.shapeCast_vec_row_apply]
    rw [dot_plain]
    rw [Cert.Lib.PlainDot.matmul_plain_zero_apply, Cert.Lib.PlainDot.matmul_plain_zero_apply]
    rfl
  · unfold extractAt
    exact congrArg x8 (funext fun a => Fin.ext (by match a with | ⟨0, _⟩ => rfl))

/-- THE NOISE: a pointwise function of the samples. -/
theorem noise_apply (i : S1x16000.Idx) : k0_pay4 x3 i = noise (x3 i) := by
  unfold k0_pay4
  simp only [shapeCast_self]
  rfl

/-- THE SECOND OUTPUT, the gate, at edge r of the block. -/
theorem gate_apply (r : Fin 16000) :
    k0_pay1 (k0_pay3 x0 x1 x4 x5 x6 x7 x8) (k0_pay4 x3) (ix2 (0 : Fin 1) r)
      = gate (x3 (ix2 (0 : Fin 1) r)) (blockLogit x0 x1 x4 x5 x6 x7 x8 r) := by
  show Ideal.logistic (Ideal.div (k0_pay4 x3 (ix2 (0 : Fin 1) r) + k0_pay3 x0 x1 x4 x5 x6 x7 x8 (ix2 (0 : Fin 1) r))
      (Ideal.ofBits .f32 0x3F800000#32)) = _
  rw [noise_apply, logit_apply]
  rfl

/-- THE FIRST OUTPUT, the value times the gate, at edge r of the block. -/
theorem out_apply (r : Fin 16000) :
    k0_pay2 (k0_pay3 x0 x1 x4 x5 x6 x7 x8) (k0_pay4 x3) x2 (ix2 (0 : Fin 1) r)
      = x2 (ix2 (0 : Fin 1) r) * gate (x3 (ix2 (0 : Fin 1) r)) (blockLogit x0 x1 x4 x5 x6 x7 x8 r) := by
  unfold k0_pay2
  simp only [shapeCast_self, mulf_apply]
  rw [gate_apply]

end Cert.KernelIdeal.Point

end
-- ==== Proof.KernelEntry.lean ====
/-
  The arrays the kernel's region finds, read at an index.

  Before the kernel is launched the host prepares its nine operands from the arguments: the two blocks of
  gathered table rows (the table at the rows the source, resp. destination, index words name: a negative word
  counted from the end of the table, every row clamped into it), the values and the samples laid out as rows
  of 400000, the top and bottom halves of the first layer's matrix, the second layer's column as a vector of
  64; the two biases are passed as they are. A change of float format is the identity at the ideal values.
  Each operand is read here at an index as the argument it comes from at the corresponding index.
-/
import proofs.«146013_j16724602651079_2_alg».proof.Proof.Gen.KernelIdeal.Frame
import proofs.«146013_j16724602651079_2_alg».proof.Proof.Gate
import proofs.«146013_j16724602651079_2_alg».proof.Proof.LibRowGather
import proofs.«146013_j16724602651079_2_alg».proof.Proof.LibRows
import Idealize.ShloMosaic.Lib.Pipeline.Value
import Idealize.ShloMosaic.Lib.ValueIdx
import Idealize.ShloMosaic.Lib.IdealHost
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.RowGather Cert.EdgeGate

variable (m : (ℓ : Loc nD τ sig) → Buf (Elt Ideal) ℓ) (c : Dev nD)

/-- The column of start indices the host builds from an array of index words, read at (e, 0): the word,
    with 100000 added if it is negative. -/
theorem start_apply (x : IVec S400000 32) (e : Fin 400000) :
    broadcastInDim S400000x1 ![0] bcast_S400000_S400000x1_0
        (select (cmpi .slt x (broadcastInDim S400000 ![] bcast_S_S400000 (constantI S_ 32 0#32)))
          (addi x (broadcastInDim S400000 ![] bcast_S_S400000 (constantI S_ 32 100000#32))) x) (ix2 e (0 : Fin 1))
      = Scalar.select (IntOp.cmpi .slt (x (ix1 e)) 0#32) (IntOp.addi (x (ix1 e)) 100000#32) (x (ix1 e)) := by
  refine (broadcastInDim_apply _ bcast_S400000_S400000x1_0 _ (ix2 e (0 : Fin 1)) (ix1 e) (fun a => match a with
    | ⟨0, _⟩ => by show e.val = if (400000 : Nat) = 1 then 0 else e.val; rw [if_neg (by decide)])).trans ?_
  have h0 : ∀ w : BitVec 32, broadcastInDim S400000 ![] bcast_S_S400000 (constantI S_ 32 w) (ix1 e) = w :=
    fun w => broadcastInDim_scalar_apply bcast_S_S400000 _ (ix1 e)
  show Scalar.select (IntOp.cmpi .slt (x (ix1 e)) (broadcastInDim S400000 ![] bcast_S_S400000 (constantI S_ 32 0#32) (ix1 e)))
      (IntOp.addi (x (ix1 e)) (broadcastInDim S400000 ![] bcast_S_S400000 (constantI S_ 32 100000#32) (ix1 e))) (x (ix1 e)) = _
  rw [h0, h0]

/-- Table rows gathered at the start indices of an array of index words, read at (e, k): the table at the row
    the word of edge e names, column k (the table first changed to the narrower float format: the identity). -/
theorem gathered_apply (T : FVec Ideal S100000x128 .f32) (x : IVec S400000 32) (e : Fin 400000) (k : Fin 128) :
    Host.gather gather_S100000x128_S400000x1_S400000x128_1_0_n_n_0_1_1128 (truncf (F := Ideal) .bf16 T bitsLt_bf16_f32)
        (broadcastInDim S400000x1 ![0] bcast_S400000_S400000x1_0
          (select (cmpi .slt x (broadcastInDim S400000 ![] bcast_S_S400000 (constantI S_ 32 0#32)))
            (addi x (broadcastInDim S400000 ![] bcast_S_S400000 (constantI S_ 32 100000#32))) x)) (ix2 e k)
      = T (ix2 (rowOf (x (ix1 e))) k) := by
  refine (gather_rows_apply (by decide) _ _ _ e k).trans ?_
  rw [start_apply]
  rfl

/-- Window 0's array: the source rows. -/
theorem src_rows (e : Fin 400000) (k : Fin 128) :
    (V m c main_v7 : S400000x128.Idx → Ideal .bf16) (ix2 e k)
      = m ((c : Thread nD τ).loc main_arg0) (ix2 (rowOf (m ((c : Thread nD τ).loc main_arg1) (ix1 e))) k) := by
  have h : (V m c main_v7 : S400000x128.Idx → Ideal .bf16)
      = Host.gather gather_S100000x128_S400000x1_S400000x128_1_0_n_n_0_1_1128
        (truncf (F := Ideal) .bf16 (m ((c : Thread nD τ).loc main_arg0)) bitsLt_bf16_f32)
        (broadcastInDim S400000x1 ![0] bcast_S400000_S400000x1_0
          (select (cmpi .slt (m ((c : Thread nD τ).loc main_arg1)) (broadcastInDim S400000 ![] bcast_S_S400000 (constantI S_ 32 0#32)))
            (addi (m ((c : Thread nD τ).loc main_arg1)) (broadcastInDim S400000 ![] bcast_S_S400000 (constantI S_ 32 100000#32)))
            (m ((c : Thread nD τ).loc main_arg1)))) := by
    show StableHlo.after hostOps0 (fun b => m (c, b)) (Proc.devRef .tc main_v7) = _
    after_results <;> rfl
  rw [h]
  exact gathered_apply _ _ e k

/-- Window 1's array: the destination rows. -/
theorem dst_rows (e : Fin 400000) (k : Fin 128) :
    (V m c main_v14 : S400000x128.Idx → Ideal .bf16) (ix2 e k)
      = m ((c : Thread nD τ).loc main_arg0) (ix2 (rowOf (m ((c : Thread nD τ).loc main_arg2) (ix1 e))) k) := by
  have h : (V m c main_v14 : S400000x128.Idx → Ideal .bf16)
      = Host.gather gather_S100000x128_S400000x1_S400000x128_1_0_n_n_0_1_1128
        (truncf (F := Ideal) .bf16 (m ((c : Thread nD τ).loc main_arg0)) bitsLt_bf16_f32)
        (broadcastInDim S400000x1 ![0] bcast_S400000_S400000x1_0
          (select (cmpi .slt (m ((c : Thread nD τ).loc main_arg2)) (broadcastInDim S400000 ![] bcast_S_S400000 (constantI S_ 32 0#32)))
            (addi (m ((c : Thread nD τ).loc main_arg2)) (broadcastInDim S400000 ![] bcast_S_S400000 (constantI S_ 32 100000#32)))
            (m ((c : Thread nD τ).loc main_arg2)))) := by
    show StableHlo.after hostOps0 (fun b => m (c, b)) (Proc.devRef .tc main_v14) = _
    after_results <;> rfl
  rw [h]
  exact gathered_apply _ _ e k

/-- Window 2's array: the values as a row. -/
theorem vals_row (e : Fin 400000) :
    (V m c main_v15 : S1x400000.Idx → Ideal .f32) (ix2 (0 : Fin 1) e) = m ((c : Thread nD τ).loc main_arg3) (ix1 e) := by
  have h : (V m c main_v15 : S1x400000.Idx → Ideal .f32)
      = shapeCast S1x400000 (m ((c : Thread nD τ).loc main_arg3)) shapeCasts_S400000_S1x400000 := by
    show StableHlo.after hostOps0 (fun b => m (c, b)) (Proc.devRef .tc main_v15) = _
    after_results <;> rfl
  rw [h]
  exact Cert.Lib.Rows.shapeCast_vec_row_apply _ _ e

/-- Window 3's array: the samples, a column of 400000, as a row. -/
theorem samples_row (e : Fin 400000) :
    (V m c main_v16 : S1x400000.Idx → Ideal .f32) (ix2 (0 : Fin 1) e) = m ((c : Thread nD τ).loc main_arg4) (ix2 e (0 : Fin 1)) := by
  have h : (V m c main_v16 : S1x400000.Idx → Ideal .f32)
      = shapeCast S1x400000 (m ((c : Thread nD τ).loc main_arg4)) shapeCasts_S400000x1_S1x400000 := by
    show StableHlo.after hostOps0 (fun b => m (c, b)) (Proc.devRef .tc main_v16) = _
    after_results <;> rfl
  rw [h]
  refine shapeCast_apply _ _ (ix2 (0 : Fin 1) e) (ix2 e (0 : Fin 1)) ?_
  rw [Shape.rowMajor_val_two, Shape.rowMajor_val_two]
  show e.val * 1 + 0 = 0 * 400000 + e.val
  omega

/-- Window 4's array: the top half of the first layer's matrix. -/
theorem top_half (k : Fin 128) (j : Fin 64) :
    (V m c main_v18 : S128x64.Idx → Ideal .bf16) (ix2 k j) = m ((c : Thread nD τ).loc main_arg5) (ix2 (topRow k) j) := by
  have h : (V m c main_v18 : S128x64.Idx → Ideal .bf16)
      = truncf (F := Ideal) .bf16 (extractStridedSlice S128x64 ![0, 0] (m ((c : Thread nD τ).loc main_arg5)) slices_S256x64_S128x64_0_0)
          bitsLt_bf16_f32 := by
    show StableHlo.after hostOps0 (fun b => m (c, b)) (Proc.devRef .tc main_v18) = _
    after_results <;> rfl
  rw [h]
  show extractStridedSlice S128x64 ![0, 0] (m ((c : Thread nD τ).loc main_arg5)) slices_S256x64_S128x64_0_0 (ix2 k j) = _
  refine (Cert.Lib.Rows.slice_rows_apply _ slices_S256x64_S128x64_0_0 k j (by have := k.isLt; omega)).trans ?_
  exact congrArg (fun r => m ((c : Thread nD τ).loc main_arg5) (ix2 r j)) (Fin.ext (by show 0 + k.val = k.val; omega))

/-- Window 5's array: the bottom half of the first layer's matrix. -/
theorem bottom_half (k : Fin 128) (j : Fin 64) :
    (V m c main_v20 : S128x64.Idx → Ideal .bf16) (ix2 k j) = m ((c : Thread nD τ).loc main_arg5) (ix2 (botRow k) j) := by
  have h : (V m c main_v20 : S128x64.Idx → Ideal .bf16)
      = truncf (F := Ideal) .bf16 (extractStridedSlice S128x64 ![128, 0] (m ((c : Thread nD τ).loc main_arg5)) slices_S256x64_S128x64_128_0)
          bitsLt_bf16_f32 := by
    show StableHlo.after hostOps0 (fun b => m (c, b)) (Proc.devRef .tc main_v20) = _
    after_results <;> rfl
  rw [h]
  show extractStridedSlice S128x64 ![128, 0] (m ((c : Thread nD τ).loc main_arg5)) slices_S256x64_S128x64_128_0 (ix2 k j) = _
  refine (Cert.Lib.Rows.slice_rows_apply _ slices_S256x64_S128x64_128_0 k j (by have := k.isLt; omega)).trans ?_
  exact congrArg (fun r => m ((c : Thread nD τ).loc main_arg5) (ix2 r j)) (Fin.ext rfl)

/-- Window 7's array: the second layer's column as a vector. -/
theorem column_vec (j : Fin 64) :
    (V m c main_v21 : S64.Idx → Ideal .f32) (ix1 j) = m ((c : Thread nD τ).loc main_arg7) (ix2 j (0 : Fin 1)) := by
  have h : (V m c main_v21 : S64.Idx → Ideal .f32)
      = shapeCast S64 (m ((c : Thread nD τ).loc main_arg7)) shapeCasts_S64x1_S64 := by
    show StableHlo.after hostOps0 (fun b => m (c, b)) (Proc.devRef .tc main_v21) = _
    after_results <;> rfl
  rw [h]
  refine shapeCast_apply _ _ (ix1 j) (ix2 j (0 : Fin 1)) ?_
  rw [Shape.rowMajor_val_two, Shape.rowMajor_val_one]
  show j.val * 1 + 0 = j.val
  omega

end Cert.KernelIdeal.Entry

end
-- ==== Proof.KernelBlocks.lean ====
/-
  From blocks to arrays: what the two output arrays hold after all 25 grid points.

  The grid has 25 points; point t works on the edges t·16000 … t·16000 + 15999. Its blocks of the source rows,
  the destination rows, the values and the samples are those edges' rows resp. entries; the weights' blocks are
  the whole weights at every point. So what point t writes back to the second output is, at edge q of the block,
  the gate of edge t·16000 + q of the whole problem (`gateOf` of the argument arrays), and to the first output
  that edge's value times its gate: each is block t of ONE function of the argument arrays. The 25 blocks cover
  the 400000 entries (entry i lies in block i / 16000), so after the last point the two arrays are those functions.
-/
import proofs.«146013_j16724602651079_2_alg».proof.Proof.Gen.KernelIdeal.Frame
import proofs.«146013_j16724602651079_2_alg».proof.Proof.Gate
import proofs.«146013_j16724602651079_2_alg».proof.Proof.KernelPoint
import proofs.«146013_j16724602651079_2_alg».proof.Proof.KernelEntry
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.EdgeGate
open Idealize.ShloMosaic.Pipeline (Dat)

variable (m : (ℓ : Loc nD τ sig) → Buf (Elt Ideal) ℓ) (c : Dev nD)

theorem hz2 : (![0, 0] : Fin 2 → Nat) = fun _ => 0 := funext fun a => by fin_cases a <;> rfl
theorem hz1 : (![0] : Fin 1 → Nat) = fun _ => 0 := funext fun a => by fin_cases a <;> rfl

/-! ## The index maps, decided over the 25 points -/

/-- The row blocks (source and destination rows) move down the rows with the point. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The lane blocks (values, samples, the two outputs) move along the lanes with the point. -/
theorem idx_lanes : ∀ t : Fin cfg0.N, win0_2.index t (0 : Fin 2) = 0 ∧ win0_2.index t (1 : Fin 2) = t.val
    ∧ win0_3.index t (0 : Fin 2) = 0 ∧ win0_3.index t (1 : Fin 2) = t.val
    ∧ win0_9.index t (0 : Fin 2) = 0 ∧ win0_9.index t (1 : Fin 2) = t.val
    ∧ win0_10.index t (0 : Fin 2) = 0 ∧ win0_10.index t (1 : Fin 2) = t.val :=
  (by decide +kernel : ∀ t : Fin grid0.N, _)

/-- The weights' blocks are the whole weights at every point. -/
theorem idx_weights : ∀ t : Fin cfg0.N, win0_4.index t (0 : Fin 2) = 0 ∧ win0_4.index t (1 : Fin 2) = 0
    ∧ win0_5.index t (0 : Fin 2) = 0 ∧ win0_5.index t (1 : Fin 2) = 0
    ∧ win0_6.index t (0 : Fin 1) = 0 ∧ win0_7.index t (0 : Fin 1) = 0 ∧ win0_8.index t (0 : Fin 1) = 0 :=
  (by decide +kernel : ∀ t : Fin grid0.N, _)

/-- Edge q of point t's block, as an edge of the whole problem. -/
def edge (t : Fin cfg0.N) (q : Fin 16000) : Fin 400000 :=
  ⟨t.val * 16000 + q.val, by have h : t.val < 25 := lt_of_lt_of_eq t.isLt N_0; have := q.isLt; omega⟩

/-! ## The input blocks, read as the arguments -/

theorem blk_src (t : Fin cfg0.N) (q : Fin 16000) (k : Fin 128) :
    iblk m c 0 t (ix2 q k) = (m ((c : Thread nD τ).loc main_arg0)) (ix2 (rowOf ((m ((c : Thread nD τ).loc main_arg1)) (ix1 (edge t q)))) k) := by
  obtain ⟨e0, e1, -, -⟩ := idx_rows t
  have hi : ((cfg0.win 0).blk t).view.emb (ix2 q k) = ix2 (edge t q) k := by
    funext a; apply Fin.ext
    match a with
    | ⟨0, _⟩ => show win0_0.index t (0 : Fin 2) * 16000 + 1 * q.val = t.val * 16000 + q.val; omega
    | ⟨1, _⟩ => show win0_0.index t (1 : Fin 2) * 128 + 1 * k.val = k.val; omega
  show (V m c main_v7 : S400000x128.Idx → Ideal .bf16) (((cfg0.win 0).blk t).view.emb (ix2 q k)) = _
  rw [hi]
  exact Entry.src_rows m c (edge t q) k

theorem blk_dst (t : Fin cfg0.N) (q : Fin 16000) (k : Fin 128) :
    iblk m c 1 t (ix2 q k) = (m ((c : Thread nD τ).loc main_arg0)) (ix2 (rowOf ((m ((c : Thread nD τ).loc main_arg2)) (ix1 (edge t q)))) k) := by
  obtain ⟨-, -, e0, e1⟩ := idx_rows t
  have hi : ((cfg0.win 1).blk t).view.emb (ix2 q k) = ix2 (edge t q) k := by
    funext a; apply Fin.ext
    match a with
    | ⟨0, _⟩ => show win0_1.index t (0 : Fin 2) * 16000 + 1 * q.val = t.val * 16000 + q.val; omega
    | ⟨1, _⟩ => show win0_1.index t (1 : Fin 2) * 128 + 1 * k.val = k.val; omega
  show (V m c main_v14 : S400000x128.Idx → Ideal .bf16) (((cfg0.win 1).blk t).view.emb (ix2 q k)) = _
  rw [hi]
  exact Entry.dst_rows m c (edge t q) k

theorem blk_vals (t : Fin cfg0.N) (q : Fin 16000) :
    iblk m c 2 t (ix2 (0 : Fin 1) q) = (m ((c : Thread nD τ).loc main_arg3)) (ix1 (edge t q)) := by
  obtain ⟨e0, e1, -⟩ := idx_lanes t
  have hi : ((cfg0.win 2).blk t).view.emb (ix2 (0 : Fin 1) q) = ix2 (0 : Fin 1) (edge t q) := by
    funext a; apply Fin.ext
    match a with
    | ⟨0, _⟩ => show win0_2.index t (0 : Fin 2) * 1 + 1 * 0 = 0; omega
    | ⟨1, _⟩ => show win0_2.index t (1 : Fin 2) * 16000 + 1 * q.val = t.val * 16000 + q.val; omega
  show (V m c main_v15 : S1x400000.Idx → Ideal .f32) (((cfg0.win 2).blk t).view.emb (ix2 (0 : Fin 1) q)) = _
  rw [hi]
  exact Entry.vals_row m c (edge t q)

theorem blk_samples (t : Fin cfg0.N) (q : Fin 16000) :
    iblk m c 3 t (ix2 (0 : Fin 1) q) = (m ((c : Thread nD τ).loc main_arg4)) (ix2 (edge t q) (0 : Fin 1)) := by
  obtain ⟨-, -, e0, e1, -⟩ := idx_lanes t
  have hi : ((cfg0.win 3).blk t).view.emb (ix2 (0 : Fin 1) q) = ix2 (0 : Fin 1) (edge t q) := by
    funext a; apply Fin.ext
    match a with
    | ⟨0, _⟩ => show win0_3.index t (0 : Fin 2) * 1 + 1 * 0 = 0; omega
    | ⟨1, _⟩ => show win0_3.index t (1 : Fin 2) * 16000 + 1 * q.val = t.val * 16000 + q.val; omega
  show (V m c main_v16 : S1x400000.Idx → Ideal .f32) (((cfg0.win 3).blk t).view.emb (ix2 (0 : Fin 1) q)) = _
  rw [hi]
  exact Entry.samples_row m c (edge t q)

theorem blk_top (t : Fin cfg0.N) (k : Fin 128) (j : Fin 64) :
    iblk m c 4 t (ix2 k j) = (m ((c : Thread nD τ).loc main_arg5)) (ix2 (topRow k) j) := by
  obtain ⟨e0, e1, -⟩ := idx_weights t
  have hi : ((cfg0.win 4).blk t).view.emb (ix2 k j) = ix2 k j := by
    funext a; apply Fin.ext
    match a with
    | ⟨0, _⟩ => show win0_4.index t (0 : Fin 2) * 128 + 1 * k.val = k.val; omega
    | ⟨1, _⟩ => show win0_4.index t (1 : Fin 2) * 64 + 1 * j.val = j.val; omega
  show (V m c main_v18 : S128x64.Idx → Ideal .bf16) (((cfg0.win 4).blk t).view.emb (ix2 k j)) = _
  rw [hi]
  exact Entry.top_half m c k j

theorem blk_bottom (t : Fin cfg0.N) (k : Fin 128) (j : Fin 64) :
    iblk m c 5 t (ix2 k j) = (m ((c : Thread nD τ).loc main_arg5)) (ix2 (botRow k) j) := by
  obtain ⟨-, -, e0, e1, -⟩ := idx_weights t
  have hi : ((cfg0.win 5).blk t).view.emb (ix2 k j) = ix2 k j := by
    funext a; apply Fin.ext
    match a with
    | ⟨0, _⟩ => show win0_5.index t (0 : Fin 2) * 128 + 1 * k.val = k.val; omega
    | ⟨1, _⟩ => show win0_5.index t (1 : Fin 2) * 64 + 1 * j.val = j.val; omega
  show (V m c main_v20 : S128x64.Idx → Ideal .bf16) (((cfg0.win 5).blk t).view.emb (ix2 k j)) = _
  rw [hi]
  exact Entry.bottom_half m c k j

theorem blk_bias1 (t : Fin cfg0.N) (j : Fin 64) : iblk m c 6 t (ix1 j) = (m ((c : Thread nD τ).loc main_arg6)) (ix1 j) := by
  obtain ⟨-, -, -, -, e0, -⟩ := idx_weights t
  have hi : ((cfg0.win 6).blk t).view.emb (ix1 j) = ix1 j := by
    funext a; apply Fin.ext
    match a with
    | ⟨0, _⟩ => show win0_6.index t (0 : Fin 1) * 64 + 1 * j.val = j.val; omega
  show (V m c main_arg6 : S64.Idx → Ideal .f32) (((cfg0.win 6).blk t).view.emb (ix1 j)) = _
  rw [hi, V_main_arg6]

theorem blk_column (t : Fin cfg0.N) (j : Fin 64) : iblk m c 7 t (ix1 j) = (m ((c : Thread nD τ).loc main_arg7)) (ix2 j (0 : Fin 1)) := by
  obtain ⟨-, -, -, -, -, e0, -⟩ := idx_weights t
  have hi : ((cfg0.win 7).blk t).view.emb (ix1 j) = ix1 j := by
    funext a; apply Fin.ext
    match a with
    | ⟨0, _⟩ => show win0_7.index t (0 : Fin 1) * 64 + 1 * j.val = j.val; omega
  show (V m c main_v21 : S64.Idx → Ideal .f32) (((cfg0.win 7).blk t).view.emb (ix1 j)) = _
  rw [hi]
  exact Entry.column_vec m c j

theorem blk_bias2 (t : Fin cfg0.N) : iblk m c 8 t (ix1 (0 : Fin 1)) = (m ((c : Thread nD τ).loc main_arg8)) (ix1 (0 : Fin 1)) := by
  obtain ⟨-, -, -, -, -, -, e0⟩ := idx_weights t
  have hi : ((cfg0.win 8).blk t).view.emb (ix1 (0 : Fin 1)) = ix1 (0 : Fin 1) := by
    funext a; apply Fin.ext
    match a with
    | ⟨0, _⟩ => show win0_8.index t (0 : Fin 1) * 1 + 1 * 0 = 0; omega
  show (V m c main_arg8 : S1.Idx → Ideal .f32) (((cfg0.win 8).blk t).view.emb (ix1 (0 : Fin 1))) = _
  rw [hi, V_main_arg8]

/-- THE GATE OF A BLOCK'S EDGE is the gate of that edge of the whole problem. -/
theorem block_gate (t : Fin cfg0.N) (q : Fin 16000) :
    gate (iblk m c 3 t (ix2 (0 : Fin 1) q))
        (Point.blockLogit (iblk m c 0 t) (iblk m c 1 t) (iblk m c 4 t) (iblk m c 5 t) (iblk m c 6 t) (iblk m c 7 t) (iblk m c 8 t) q)
      = gateOf (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (edge t q) := by
  unfold Point.blockLogit gateOf
  simp only [blk_src m c t q, blk_dst m c t q, blk_samples m c t q, blk_top m c t, blk_bottom m c t, blk_bias1 m c t,
    blk_column m c t, blk_bias2 m c t]

/-! ## The two output arrays -/

/-- The second output: the gate of every edge, as a row. -/
def gates : S1x400000.Idx → Ideal .f32 := fun i => gateOf (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) ⟨(i 1).val, (i 1).isLt⟩

/-- The values argument, as an array of extended reals. -/
abbrev valsOf : (⟨1, ![400000]⟩ : Shape).Idx → EReal := (m ((c : Thread nD τ).loc main_arg3))

/-- The first output: every edge's value times its gate, as a row. -/
def newVals : S1x400000.Idx → Ideal .f32 := fun i =>
  valsOf m c (ix1 ⟨(i 1).val, (i 1).isLt⟩) * gateOf (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) ⟨(i 1).val, (i 1).isLt⟩

/-- Where the output blocks sit: edge q of point t's block is entry (0, t·16000 + q). -/
theorem out_emb10 (t : Fin cfg0.N) (q : Fin 16000) :
    (⟨((((cfg0.win 10).blk t).view.emb (ix2 (0 : Fin 1) q)) 1).val, ((((cfg0.win 10).blk t).view.emb (ix2 (0 : Fin 1) q)) 1).isLt⟩ : Fin 400000)
      = edge t q := by
  obtain ⟨-, -, -, -, -, -, e0, e1⟩ := idx_lanes t
  apply Fin.ext
  show win0_10.index t (1 : Fin 2) * 16000 + 1 * q.val = t.val * 16000 + q.val
  omega

theorem out_emb9 (t : Fin cfg0.N) (q : Fin 16000) :
    (⟨((((cfg0.win 9).blk t).view.emb (ix2 (0 : Fin 1) q)) 1).val, ((((cfg0.win 9).blk t).view.emb (ix2 (0 : Fin 1) q)) 1).isLt⟩ : Fin 400000)
      = edge t q := by
  obtain ⟨-, -, -, -, e0, e1, -, -⟩ := idx_lanes t
  apply Fin.ext
  show win0_9.index t (1 : Fin 2) * 16000 + 1 * q.val = t.val * 16000 + q.val
  omega

/-- WHAT POINT t WRITES BACK to the second output is block t of the row of gates. -/
theorem flushed10_eq (t : Fin cfg0.N) :
    (dats m 0 c).flushed 10 t = ((cfg0.win 10).blk t).view.read (Elt Ideal) (gates m c) := by
  show (cfg0.win 10).cut (grid0.coords t) ((dats m 0 c).after 10 t) = _
  rw [after0_10]
  unfold out0_10
  rw [View.canon_unit_zero hz2]
  simp only [View.ld_unit_zero (S := S16000x128) hz2, View.ld_unit_zero (S := S128x64) hz2, View.ld_unit_zero (S := S64) hz1,
    View.ld_unit_zero (S := S1) hz1, View.ld_unit_zero (S := S1x16000) hz2]
  funext j
  obtain ⟨p, q, rfl⟩ : ∃ (p : Fin 1) (q : Fin 16000), j = ix2 p q := ⟨j 0, j 1, eq_ix2 j⟩
  obtain rfl : p = 0 := Subsingleton.elim _ _
  show k0_pay1 (k0_pay3 (iblk m c 0 t) (iblk m c 1 t) (iblk m c 4 t) (iblk m c 5 t) (iblk m c 6 t) (iblk m c 7 t) (iblk m c 8 t))
      (k0_pay4 (iblk m c 3 t)) (ix2 (0 : Fin 1) q)
    = gateOf (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))
        ⟨((((cfg0.win 10).blk t).view.emb (ix2 (0 : Fin 1) q)) 1).val, ((((cfg0.win 10).blk t).view.emb (ix2 (0 : Fin 1) q)) 1).isLt⟩
  rw [out_emb10]
  exact (Point.gate_apply (iblk m c 0 t) (iblk m c 1 t) (iblk m c 3 t) (iblk m c 4 t) (iblk m c 5 t) (iblk m c 6 t) (iblk m c 7 t)
    (iblk m c 8 t) q).trans (block_gate m c t q)

/-- WHAT POINT t WRITES BACK to the first output is block t of the row of values times gates. -/
theorem flushed9_eq (t : Fin cfg0.N) :
    (dats m 0 c).flushed 9 t = ((cfg0.win 9).blk t).view.read (Elt Ideal) (newVals m c) := by
  show (cfg0.win 9).cut (grid0.coords t) ((dats m 0 c).after 9 t) = _
  rw [after0_9]
  unfold out0_9
  rw [View.canon_unit_zero hz2]
  simp only [View.ld_unit_zero (S := S16000x128) hz2, View.ld_unit_zero (S := S128x64) hz2, View.ld_unit_zero (S := S64) hz1,
    View.ld_unit_zero (S := S1) hz1, View.ld_unit_zero (S := S1x16000) hz2]
  funext j
  obtain ⟨p, q, rfl⟩ : ∃ (p : Fin 1) (q : Fin 16000), j = ix2 p q := ⟨j 0, j 1, eq_ix2 j⟩
  obtain rfl : p = 0 := Subsingleton.elim _ _
  show k0_pay2 (k0_pay3 (iblk m c 0 t) (iblk m c 1 t) (iblk m c 4 t) (iblk m c 5 t) (iblk m c 6 t) (iblk m c 7 t) (iblk m c 8 t))
      (k0_pay4 (iblk m c 3 t)) (iblk m c 2 t) (ix2 (0 : Fin 1) q)
    = valsOf m c (ix1 ⟨((((cfg0.win 9).blk t).view.emb (ix2 (0 : Fin 1) q)) 1).val, ((((cfg0.win 9).blk t).view.emb (ix2 (0 : Fin 1) q)) 1).isLt⟩)
      * gateOf (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))
        ⟨((((cfg0.win 9).blk t).view.emb (ix2 (0 : Fin 1) q)) 1).val, ((((cfg0.win 9).blk t).view.emb (ix2 (0 : Fin 1) q)) 1).isLt⟩
  rw [out_emb9]
  refine (Point.out_apply (iblk m c 0 t) (iblk m c 1 t) (iblk m c 2 t) (iblk m c 3 t) (iblk m c 4 t) (iblk m c 5 t) (iblk m c 6 t)
    (iblk m c 7 t) (iblk m c 8 t) q).trans ?_
  rw [blk_vals m c t q, block_gate m c t q]

/-- An entry of an output row lies in point t's block iff each coordinate is in the block's range. -/
theorem mem_blk10 (t : Fin cfg0.N) (i : S1x400000.Idx) :
    i ∈ ((cfg0.win 10).blk t).view.set ↔ ∀ a : Fin 2, win0_10.index t a * S1x16000.size a ≤ (i a).val
      ∧ (i a).val < win0_10.index t a * S1x16000.size a + S1x16000.size a := by
  show i ∈ ((View.whole main_v22_1).slice (win0_10.rect t)).set ↔ _
  rw [View.set_slice_whole, Rect.mem_set_unit]
  exact Iff.rfl

theorem mem_blk9 (t : Fin cfg0.N) (i : S1x400000.Idx) :
    i ∈ ((cfg0.win 9).blk t).view.set ↔ ∀ a : Fin 2, win0_9.index t a * S1x16000.size a ≤ (i a).val
      ∧ (i a).val < win0_9.index t a * S1x16000.size a + S1x16000.size a := by
  show i ∈ ((View.whole main_v22_0).slice (win0_9.rect t)).set ↔ _
  rw [View.set_slice_whole, Rect.mem_set_unit]
  exact Iff.rfl

/-- The point whose block holds entry i of a row of 400000: i / 16000. -/
def pointOf (i : S1x400000.Idx) : Fin cfg0.N :=
  ⟨(i 1).val / 16000, by
    have h1 : (i 1).val < 400000 := (i 1).isLt
    exact lt_of_lt_of_eq (show (i 1).val / 16000 < 25 by omega) N_0.symm⟩

/-- THE COVER: every entry of the second output lies in some point's block. -/
theorem cover10 (i : S1x400000.Idx) :
    ∃ t : Fin cfg0.N, (cfg0.win 10).flush t = true ∧ i ∈ ((cfg0.win 10).blk t).view.set := by
  have h0 : (i 0).val < 1 := (i 0).isLt
  have h1 : (i 1).val < 400000 := (i 1).isLt
  obtain ⟨-, -, -, -, -, -, e0, e1⟩ := idx_lanes (pointOf i)
  have ht : (pointOf i).val = (i 1).val / 16000 := rfl
  refine ⟨pointOf i, flush0_10 _, ?_⟩
  rw [mem_blk10]
  intro a
  match a with
  | ⟨0, _⟩ =>
    show win0_10.index (pointOf i) (0 : Fin 2) * 1 ≤ (i 0).val ∧ (i 0).val < win0_10.index (pointOf i) (0 : Fin 2) * 1 + 1
    omega
  | ⟨1, _⟩ =>
    show win0_10.index (pointOf i) (1 : Fin 2) * 16000 ≤ (i 1).val
      ∧ (i 1).val < win0_10.index (pointOf i) (1 : Fin 2) * 16000 + 16000
    omega

theorem cover9 (i : S1x400000.Idx) :
    ∃ t : Fin cfg0.N, (cfg0.win 9).flush t = true ∧ i ∈ ((cfg0.win 9).blk t).view.set := by
  have h0 : (i 0).val < 1 := (i 0).isLt
  have h1 : (i 1).val < 400000 := (i 1).isLt
  obtain ⟨-, -, -, -, e0, e1, -, -⟩ := idx_lanes (pointOf i)
  have ht : (pointOf i).val = (i 1).val / 16000 := rfl
  refine ⟨pointOf i, flush0_9 _, ?_⟩
  rw [mem_blk9]
  intro a
  match a with
  | ⟨0, _⟩ =>
    show win0_9.index (pointOf i) (0 : Fin 2) * 1 ≤ (i 0).val ∧ (i 0).val < win0_9.index (pointOf i) (0 : Fin 2) * 1 + 1
    omega
  | ⟨1, _⟩ =>
    show win0_9.index (pointOf i) (1 : Fin 2) * 16000 ≤ (i 1).val
      ∧ (i 1).val < win0_9.index (pointOf i) (1 : Fin 2) * 16000 + 16000
    omega

/-- THE SECOND OUTPUT ARRAY after the run is the row of gates. -/
theorem final10 : (dats m 0 c).arrAt 10 cfg0.N = gates m c :=
  (dats m 0 c).arrAt_eq_of_cover 10 (gates m c) (fun t _ => flushed10_eq m c t) cover10

/-- THE FIRST OUTPUT ARRAY after the run is the row of values times gates. -/
theorem final9 : (dats m 0 c).arrAt 9 cfg0.N = newVals m c :=
  (dats m 0 c).arrAt_eq_of_cover 9 (newVals m c) (fun t _ => flushed9_eq m c t) cover9

end Cert.KernelIdeal.Blocks

end
-- ==== Proof.LibIdxSums.lean ====
/-
  Sums over the entries of a vector and of a one-row matrix.

  An index of a vector of n entries is its one coordinate, and an index of a matrix [1, n] is its column (the row
  coordinate can only be 0). So a sum over all entries of such an array, in any commutative additive monoid, is the
  sum over the n positions: what a total sum of an array of shape [n] or [1, n] comes to, entry by entry.
-/
import Idealize.ShloMosaic.Lib.ValueIdx
import Mathlib.Algebra.BigOperators.Fin

noncomputable section

namespace Cert.Lib.IdxSums

open Idealize.ShloMosaic Idealize.ShloMosaic.ValueIdx
open scoped BigOperators

/-- A sum over the indices of a vector of n entries is the sum over its n positions. -/
theorem sum_idx1 {M : Type*} [AddCommMonoid M] {n : Nat} (f : (⟨1, ![n]⟩ : Shape).Idx → M) :
    ∑ j, f j = ∑ e : Fin n, f (ix1 e) :=
  Fintype.sum_equiv ⟨fun j => j 0, ix1, fun j => (eq_ix1 j).symm, fun _ => rfl⟩ f (fun e => f (ix1 e))
    (fun j => congrArg f (eq_ix1 j))

/-- A sum over the indices of a one-row matrix of n entries is the sum over its n columns. -/
theorem sum_row {M : Type*} [AddCommMonoid M] {n : Nat} (f : (⟨2, ![1, n]⟩ : Shape).Idx → M) :
    ∑ i, f i = ∑ e : Fin n, f (ix2 (0 : Fin 1) e) := by
  rw [sum_idx2, Fin.sum_univ_one]

end Cert.Lib.IdxSums

end
-- ==== Proof.KernelTail.lean ====
/-
  The kernel program's two results.

  After the 25 grid points the host reshapes the first output row (values times gates) to a vector of 400000 and
  lays it out twice in a row of 800000; it sums the second output row (the gates) over all its entries, from
  zero, and divides by the float 400000. A row [1, 400000] reshaped to [400000] keeps its entries in order, and
  a sum over the entries of a row of 400000 is the sum over the 400000 edges. So the first result is
  vals(e) · gate(e) twice over, and the second is (0 + Σₑ gate(e)) / 400000, with `gateOf` of the argument
  arrays. The arguments end as they were launched.
-/
import proofs.«146013_j16724602651079_2_alg».proof.Proof.Gen.KernelIdeal.Frame
import proofs.«146013_j16724602651079_2_alg».proof.Proof.Gate
import proofs.«146013_j16724602651079_2_alg».proof.Proof.KernelBlocks
import proofs.«146013_j16724602651079_2_alg».proof.Proof.LibIdxSums
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Tail

open scoped BigOperators

open Cert.KernelIdeal Cert.KernelIdeal.Gen Idealize.ShloMosaic Idealize.ShloMosaic.TcCoe Idealize.SL.Sem
open Idealize.ShloMosaic.ValueIdx Cert.EdgeGate Cert.Lib.IdxSums
open Idealize.ShloMosaic.Pipeline (Dat)

variable (m : (ℓ : Loc nD τ sig) → Buf (Elt Ideal) ℓ) (ρ : Dev nD → PrngReg) (c : Dev nD)

/-! ## The two results as functions of the arguments -/

/-- Every edge's value times its gate, as a vector of 400000. -/
def flatVals : S400000.Idx → Ideal .f32 := fun i =>
  Blocks.valsOf m c i * gateOf (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) ⟨(i 0).val, (i 0).isLt⟩

/-- THE FIRST RESULT: the gated values, twice in a row. -/
def result0 : S800000.Idx → Ideal .f32 :=
  concatenate S800000 0 [⟨S400000, flatVals m c⟩, ⟨S400000, flatVals m c⟩] concatenates_S400000_S400000_S800000_d0

/-- THE SECOND RESULT: the mean gate, (0 + Σ gate) / 400000. -/
def result1 : S_.Idx → Ideal .f32 := fun _ =>
  Ideal.div (Ideal.ofBits .f32 0x00000000#32 + ∑ j : S400000.Idx, gateOf (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) ⟨(j 0).val, (j 0).isLt⟩)
    (Ideal.ofBits .f32 0x48C35000#32)

/-! ## What the region leaves at its outputs -/

theorem region_out9 :
    Pipeline.withArrays (cfgs 0).spec c (V0 m c) (fun w => (dats m 0 c).arrAt w (cfgs 0).N) (Proc.devRef .tc main_v22_0)
      = Blocks.newVals m c :=
  (Pipeline.withArrays_arr spec0 launch0.win.arr_inj c _ _ 9).trans (Blocks.final9 m c)

theorem region_out10 :
    Pipeline.withArrays (cfgs 0).spec c (V0 m c) (fun w => (dats m 0 c).arrAt w (cfgs 0).N) (Proc.devRef .tc main_v22_1)
      = Blocks.gates m c :=
  (Pipeline.withArrays_arr spec0 launch0.win.arr_inj c _ _ 10).trans (Blocks.final10 m c)

/-- The row of gated values reshaped to a vector keeps its entries in order. -/
theorem flat_newVals : shapeCast S400000 (Blocks.newVals m c) shapeCasts_S1x400000_S400000 = flatVals m c := by
  funext i
  obtain ⟨e, rfl⟩ : ∃ e : Fin 400000, i = ix1 e := ⟨i 0, eq_ix1 i⟩
  refine (shapeCast_apply _ _ (ix1 e) (ix2 (0 : Fin 1) e) ?_).trans rfl
  rw [Shape.rowMajor_val_two, Shape.rowMajor_val_one]
  show 0 * 400000 + e.val = e.val
  omega

/-- The host's lines after the call leave the first result at the gated values twice over. -/
theorem tail_v24 : Pipeline.afterTail₀ cfgs (dats m) 0 (V0 m) [hostOps1] c main_v24 = result0 m c := by
  unfold Pipeline.afterTail₀
  show StableHlo.after hostOps1 _ (Proc.devRef .tc main_v24) = _
  after_results
  rw [region_out9]
  show concatenate S800000 0 [⟨S400000, shapeCast S400000 (Blocks.newVals m c) shapeCasts_S1x400000_S400000⟩,
    ⟨S400000, shapeCast S400000 (Blocks.newVals m c) shapeCasts_S1x400000_S400000⟩] concatenates_S400000_S400000_S800000_d0 = _
  rw [flat_newVals]
  rfl

/-- The host's lines after the call leave the second result at the mean gate. -/
theorem tail_v26 : Pipeline.afterTail₀ cfgs (dats m) 0 (V0 m) [hostOps1] c main_v26 = result1 m c := by
  unfold Pipeline.afterTail₀
  show StableHlo.after hostOps1 _ (Proc.devRef .tc main_v26) = _
  after_results
  rw [region_out10]
  funext i
  show Ideal.div (Ideal.hostReduceAdd reducesTo_S1x400000_S_d0_1 (Blocks.gates m c) (Ideal.ofBits .f32 0x00000000#32) i)
      (Ideal.ofBits .f32 0x48C35000#32) = _
  rw [Ideal.hostReduceAdd_total reducesTo_S1x400000_S_d0_1 (fun b => b.elim0) (Blocks.gates m c) _ i]
  unfold result1
  rw [sum_row, sum_idx1]
  rfl

/-! ## The run -/

/-- Every weakly fair execution of the kernel program terminates with its two results at `result0` and `result1`
    of the arguments, and the arguments unchanged. -/
theorem run : θ_run defs (onTc (τ := τ) (main (F := Ideal))) ⟨m, fun _ => 0, ρ⟩ fun r => ∀ c : Dev nD,
      r.2.mem ((c.tc : Thread nD τ).loc main_v24) = result0 m c
      ∧ r.2.mem ((c.tc : Thread nD τ).loc main_v26) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v24 (Pipeline.mem_restRefs_of main_v24 (by decide) (by decide))).trans (tail_v24 m c),
      ((h c).2 main_v26 (Pipeline.mem_restRefs_of main_v26 (by decide) (by decide))).trans (tail_v26 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c)))⟩)
    (run_main m ρ)

end Cert.KernelIdeal.Tail

end
-- ==== Proof.RefGate.lean ====
/-
  The reference computation read as the gate of each edge, on the extended reals.

  The reference takes, for each of the 400000 edges, the table row its source word names and the table row its
  destination word names (a negative word counted from the end of the 100000 rows, the row then clamped into
  the table), lays the two rows side by side as one row of 256 entries, multiplies by the first layer's 256 × 64
  matrix, adds its bias and cuts off below at zero, multiplies by the second layer's column and adds its bias:
  that is the edge's logit. The sample of the edge is squeezed into (0, 1) and gives the logistic noise; the
  gate is 1 / (1 + exp(−((noise + logit) / 1))).

  Read one entry at a time this is exactly the function gateOf of the specification:
  a product of a 256-entry row with a column splits into the sum over the first 128 entries (where the joined
  row holds the source row) plus the sum over the last 128 (where it holds the destination row); the bias
  vectors are repeated along the edges; 0 − x is −x inside the noise; and the quotient with the float word of
  one is the logistic function. The four results below say: the gate vector is e ↦ gate(e), as a value at an
  index (A) and as a function (B); the gated values are vals(e) · gate(e) (C); and the mean is
  (0 + Σₑ gate(e)) / 400000 (D). No finiteness of any input is used.
-/
import proofs.«146013_j16724602651079_2_alg».proof.Proof.Gen.ReferenceIdeal.Read
import proofs.«146013_j16724602651079_2_alg».proof.Proof.Gate
import proofs.«146013_j16724602651079_2_alg».proof.Proof.LibRowGather
import proofs.«146013_j16724602651079_2_alg».proof.Proof.LibRows
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.EdgeGate Idealize.ShloMosaic Idealize.ShloMosaic.ValueIdx Idealize.ShloMosaic.RowGather
open scoped BigOperators

variable (x0 : (⟨S100000x128, .f32⟩ : BufTy).Contents (Elt Ideal)) (x1 x2 : (⟨S400000, .i32⟩ : BufTy).Contents (Elt Ideal)) (x3 : (⟨S400000, .f32⟩ : BufTy).Contents (Elt Ideal)) (x4 : (⟨S400000x1, .f32⟩ : BufTy).Contents (Elt Ideal)) (x5 : (⟨S256x64, .f32⟩ : BufTy).Contents (Elt Ideal)) (x6 : (⟨S64, .f32⟩ : BufTy).Contents (Elt Ideal)) (x7 : (⟨S64x1, .f32⟩ : BufTy).Contents (Elt Ideal)) (x8 : (⟨S1, .f32⟩ : BufTy).Contents (Elt Ideal))

/-- The start-index column of the source gather at edge e: the source word, a negative one counted from the end. -/
theorem start_src (e : Fin 400000) :
    val_main_v5 (F := Ideal) x1 (ix2 e (0 : Fin 1))
      = Scalar.select (IntOp.cmpi .slt (x1 (ix1 e)) 0#32) (IntOp.addi (x1 (ix1 e)) 100000#32) (x1 (ix1 e)) := by
  have hi : idx_main_v5 (ix2 e (0 : Fin 1)) = ix1 e := funext fun a => Fin.ext (by match a with | ⟨0, _⟩ => rfl)
  rw [val_main_v5_apply, hi]
  rfl

/-- The start-index column of the destination gather at edge e. -/
theorem start_dst (e : Fin 400000) :
    val_main_v12 (F := Ideal) x2 (ix2 e (0 : Fin 1))
      = Scalar.select (IntOp.cmpi .slt (x2 (ix1 e)) 0#32) (IntOp.addi (x2 (ix1 e)) 100000#32) (x2 (ix1 e)) := by
  have hi : idx_main_v12 (ix2 e (0 : Fin 1)) = ix1 e := funext fun a => Fin.ext (by match a with | ⟨0, _⟩ => rfl)
  rw [val_main_v12_apply, hi]
  rfl

/-- The gathered source rows: entry (e, k) is the table at the row the source word of e names, column k. -/
theorem v6_at (e : Fin 400000) (k : Fin 128) :
    val_main_v6 (F := Ideal) x0 x1 (ix2 e k) = x0 (ix2 (rowOf (x1 (ix1 e))) k) := by
  unfold val_main_v6
  refine (gather_rows_apply (N := 100000) (E := 400000) (C := 128) (by decide) _ x0 (val_main_v5 (F := Ideal) x1) e k).trans ?_
  rw [start_src]
  rfl

/-- The gathered destination rows. -/
theorem v13_at (e : Fin 400000) (k : Fin 128) :
    val_main_v13 (F := Ideal) x0 x2 (ix2 e k) = x0 (ix2 (rowOf (x2 (ix1 e))) k) := by
  unfold val_main_v13
  refine (gather_rows_apply (N := 100000) (E := 400000) (C := 128) (by decide) _ x0 (val_main_v12 (F := Ideal) x2) e k).trans ?_
  rw [start_dst]
  rfl

/-- The joined rows at a top column: the source row's entry. -/
theorem v14_top (e : Fin 400000) (k : Fin 128) :
    val_main_v14 (F := Ideal) x0 x1 x2 (ix2 e (topRow k)) = x0 (ix2 (rowOf (x1 (ix1 e))) k) := by
  unfold val_main_v14
  refine (concatenate_pair_apply_left (t := S400000x256) (s₁ := S400000x128) (s₂ := S400000x128) 1 _ _ _
    (ix2 e (topRow k)) rfl (ix2 e k)
    (fun b => by match b with | ⟨0, _⟩ => rfl | ⟨1, _⟩ => rfl)).trans ?_
  exact v6_at x0 x1 e k

/-- The joined rows at a bottom column: the destination row's entry. -/
theorem v14_bot (e : Fin 400000) (k : Fin 128) :
    val_main_v14 (F := Ideal) x0 x1 x2 (ix2 e (botRow k)) = x0 (ix2 (rowOf (x2 (ix1 e))) k) := by
  unfold val_main_v14
  refine (concatenate_pair_apply_right (t := S400000x256) (s₁ := S400000x128) (s₂ := S400000x128) 1 _ _ _
    (ix2 e (botRow k)) rfl rfl (ix2 e k)
    (fun b hb => by
      match b, hb with
      | ⟨0, _⟩, _ => rfl
      | ⟨1, _⟩, hb => exact absurd rfl hb)
    (by show k.val + 128 = 128 + k.val; omega)).trans ?_
  exact v13_at x0 x2 e k

/-- The first layer's product at (e, j): the source half plus the destination half. -/
theorem v15_at (e : Fin 400000) (j : Fin 64) :
    val_main_v15 (F := Ideal) x0 x1 x2 x5 (ix2 e j)
      = (∑ k : Fin 128, x0 (ix2 (rowOf (x1 (ix1 e))) k) * x5 (ix2 (topRow k) j))
        + ∑ k : Fin 128, x0 (ix2 (rowOf (x2 (ix1 e))) k) * x5 (ix2 (botRow k) j) := by
  have hl : ∀ k : Fin 256, lidx_main_v15 (ix2 e j) k = ix2 e k := fun k =>
    funext fun a => Fin.ext (by match a with | ⟨0, _⟩ => rfl | ⟨1, _⟩ => rfl)
  have hr : ∀ k : Fin 256, ridx_main_v15 (ix2 e j) k = ix2 k j := fun k =>
    funext fun a => Fin.ext (by match a with | ⟨0, _⟩ => rfl | ⟨1, _⟩ => rfl)
  rw [val_main_v15_apply]
  simp only [hl, hr]
  rw [sum_top_bot]
  simp only [v14_top, v14_bot]

/-- The hidden layer at (e, j): the hidden unit j of edge e's two rows. -/
theorem v19_at (e : Fin 400000) (j : Fin 64) :
    val_main_v19 (F := Ideal) x0 x1 x2 x5 x6 (ix2 e j)
      = hidden (fun k => x0 (ix2 (rowOf (x1 (ix1 e))) k)) (fun k => x0 (ix2 (rowOf (x2 (ix1 e))) k))
          (fun k j => x5 (ix2 (topRow k) j)) (fun k j => x5 (ix2 (botRow k) j)) (fun j => x6 (ix1 j)) j := by
  have hb : idx_main_v16 (idx_main_v17 (ix2 e j)) = ix1 j :=
    funext fun a => Fin.ext (by match a with | ⟨0, _⟩ => rfl)
  rw [val_main_v19_apply, val_main_v18_apply, val_main_call0_v0_apply, val_main_call0_cst_apply,
    val_main_v17_apply, val_main_v16_apply, hb, v15_at]
  rfl

/-- The second layer at (e, 0): the logit of edge e. -/
theorem v23_at (e : Fin 400000) :
    val_main_v23 (F := Ideal) x0 x1 x2 x5 x6 x7 x8 (ix2 e (0 : Fin 1))
      = logit
          (hidden (fun k => x0 (ix2 (rowOf (x1 (ix1 e))) k)) (fun k => x0 (ix2 (rowOf (x2 (ix1 e))) k))
            (fun k j => x5 (ix2 (topRow k) j)) (fun k j => x5 (ix2 (botRow k) j)) (fun j => x6 (ix1 j)))
          (fun j => x7 (ix2 j (0 : Fin 1))) (x8 (ix1 (0 : Fin 1))) := by
  have hl : ∀ k : Fin 64, lidx_main_v20 (ix2 e (0 : Fin 1)) k = ix2 e k := fun k =>
    funext fun a => Fin.ext (by match a with | ⟨0, _⟩ => rfl | ⟨1, _⟩ => rfl)
  have hr : ∀ k : Fin 64, ridx_main_v20 (ix2 e (0 : Fin 1)) k = ix2 k (0 : Fin 1) := fun k =>
    funext fun a => Fin.ext (by match a with | ⟨0, _⟩ => rfl | ⟨1, _⟩ => rfl)
  have hb : idx_main_v21 (idx_main_v22 (ix2 e (0 : Fin 1))) = ix1 (0 : Fin 1) :=
    funext fun a => Fin.ext (by match a with | ⟨0, _⟩ => rfl)
  rw [val_main_v23_apply, val_main_v22_apply, val_main_v21_apply, hb, val_main_v20_apply]
  simp only [hl, hr, v19_at]
  rfl

/-- The noise at (e, 0): the logistic noise of edge e's sample. -/
theorem v31_at (e : Fin 400000) :
    val_main_v31 (F := Ideal) x4 (ix2 e (0 : Fin 1)) = noise (x4 (ix2 e (0 : Fin 1))) := by
  rw [val_main_v31_apply, val_main_v28_apply, val_main_v30_apply, val_main_v29_apply, val_main_v27_apply,
    val_main_v25_apply, val_main_v24_apply, val_main_v26_apply, val_main_cst_apply, val_main_cst_3_apply]
  exact noise_neg _

/-- The gate column at (e, 0): the gate of edge e. -/
theorem v40_at (e : Fin 400000) :
    val_main_v40 (F := Ideal) x0 x1 x2 x4 x5 x6 x7 x8 (ix2 e (0 : Fin 1)) = gateOf x0 x1 x2 x4 x5 x6 x7 x8 e := by
  rw [val_main_v40_apply, val_main_v39_apply, val_main_cst_6_apply, val_main_v38_apply, val_main_v37_apply,
    val_main_cst_5_apply, val_main_v36_apply, val_main_v35_apply, val_main_v34_apply, val_main_v33_apply,
    val_main_cst_4_apply, val_main_v32_apply, v31_at, v23_at]
  exact gate_spelt _ _

/-- (A) The gate vector at edge e is the gate of edge e. -/
theorem v41_apply (e : Fin 400000) :
    val_main_v41 (F := Ideal) x0 x1 x2 x4 x5 x6 x7 x8 (ix1 e) = gateOf x0 x1 x2 x4 x5 x6 x7 x8 e := by
  have hi : idx_main_v41 (ix1 e) = ix2 e (0 : Fin 1) :=
    funext fun a => Fin.ext (by
      match a with
      | ⟨0, _⟩ => exact Nat.div_one _
      | ⟨1, _⟩ => rfl)
  rw [val_main_v41_apply, hi]
  exact v40_at x0 x1 x2 x4 x5 x6 x7 x8 e

/-- (B) The gate vector as a function of the index: the gate of the edge the index names. -/
theorem v41_eq :
    val_main_v41 (F := Ideal) x0 x1 x2 x4 x5 x6 x7 x8
      = fun i => gateOf x0 x1 x2 x4 x5 x6 x7 x8 ⟨(i 0).val, (i 0).isLt⟩ := by
  funext i
  have hi : i = ix1 (⟨(i 0).val, (i 0).isLt⟩ : Fin 400000) :=
    funext fun d => by match d with | ⟨0, _⟩ => rfl
  exact (congrArg (val_main_v41 (F := Ideal) x0 x1 x2 x4 x5 x6 x7 x8) hi).trans
    (v41_apply x0 x1 x2 x4 x5 x6 x7 x8 _)

/-- (C) The gated values: each value times the gate of its edge. -/
theorem v44_eq :
    val_main_v44 (F := Ideal) x0 x1 x2 x3 x4 x5 x6 x7 x8
      = fun i => x3 i * gateOf x0 x1 x2 x4 x5 x6 x7 x8 ⟨(i 0).val, (i 0).isLt⟩ := by
  funext i
  rw [val_main_v44_apply, v41_eq]
  rfl

/-- (D) The mean gate: zero plus the sum of all edges' gates, divided by the number of edges. -/
theorem v43_apply (i : S_.Idx) :
    val_main_v43 (F := Ideal) x0 x1 x2 x4 x5 x6 x7 x8 i
      = Ideal.div (Ideal.ofBits .f32 0x00000000#32
            + ∑ j : S400000.Idx, gateOf x0 x1 x2 x4 x5 x6 x7 x8 ⟨(j 0).val, (j 0).isLt⟩)
          (Ideal.ofBits .f32 0x48C35000#32) := by
  rw [val_main_v43_apply, val_main_v42_apply, val_main_cst_7_apply, val_main_cst_8_apply, v41_eq]
  rfl

end Cert.ReferenceIdeal.RefValue

end
-- ==== Proof.lean ====
/-
  A gate on every edge of a graph, computed two ways.

  Inputs: a table of 100000 node embeddings of 128 entries; for each of 400000 edges a source and a destination
  index word, a value and a uniform sample; a two-layer perceptron (256 → 64 → 1). For every edge the two table
  rows are looked up, the perceptron gives a logit, the sample gives logistic noise, and the gate is the logistic
  function of their sum. The results are the values times the gates, laid out twice in a row, and the mean gate.

  The kernel program gathers the rows on the host, then runs 25 grid points of 16000 edges each: it multiplies
  the source rows by the top half of the first layer and the destination rows by the bottom half on the matrix
  unit and adds the two, where the reference multiplies the joined row of 256 entries by the whole matrix; it
  keeps the logits and gates as rows [1, 400000] where the reference keeps columns [400000, 1]; it negates by
  0 − x and has one logistic operation where the reference spells 1 / (1 + exp(−x)). On the extended reals, with
  every operation exact, these are the same function of the inputs (`EdgeGate.gateOf`): a sum of 256 products is
  the sum of its two halves in any commutative monoid, 0 − x = −x, and the logistic function is that quotient
  by definition. No finiteness of the inputs is used: the precondition is never opened.

  The three frame claims are the generated frame runs (the reference's from its generated run); the
  idealization rewrote nothing, so `preserves` is trivially true; `algebraic` puts the kernel program's run
  (Proof/KernelTail.lean) beside the reference's generated run read one operation at a time (Proof/RefGate.lean).
-/
import proofs.«146013_j16724602651079_2_alg».proof.Defs
import proofs.«146013_j16724602651079_2_alg».proof.Proof.Gen.Kernel
import proofs.«146013_j16724602651079_2_alg».proof.Proof.Gen.Kernel.Skeleton
import proofs.«146013_j16724602651079_2_alg».proof.Proof.Gen.Kernel.Launch
import proofs.«146013_j16724602651079_2_alg».proof.Proof.Gen.Kernel.Points
import proofs.«146013_j16724602651079_2_alg».proof.Proof.Gen.Kernel.Frame
import proofs.«146013_j16724602651079_2_alg».proof.Proof.Gen.KernelIdeal
import proofs.«146013_j16724602651079_2_alg».proof.Proof.Gen.KernelIdeal.Skeleton
import proofs.«146013_j16724602651079_2_alg».proof.Proof.Gen.KernelIdeal.Launch
import proofs.«146013_j16724602651079_2_alg».proof.Proof.Gen.KernelIdeal.Points
import proofs.«146013_j16724602651079_2_alg».proof.Proof.Gen.KernelIdeal.Frame
import proofs.«146013_j16724602651079_2_alg».proof.Proof.Gen.ReferenceIdeal
import proofs.«146013_j16724602651079_2_alg».proof.Proof.Gen.ReferenceIdeal.Run
import proofs.«146013_j16724602651079_2_alg».proof.Proof.Gen.ReferenceIdeal.Read
import proofs.«146013_j16724602651079_2_alg».proof.Proof.Gen.Pre_finite_inputs
import proofs.«146013_j16724602651079_2_alg».proof.Proof.KernelTail
import proofs.«146013_j16724602651079_2_alg».proof.Proof.RefGate
import Idealize.ShloMosaic.Adequacy
import Idealize.ShloMosaic.Init

noncomputable section

namespace Cert.Proof

open Idealize.ShloMosaic Idealize.ShloMosaic.TcCoe Idealize.SL.Sem

/-- The kernel program as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the gated values twice over and the mean
    gate of `EdgeGate.gateOf` of the arguments. -/
theorem algebraic : Cert.algebraic_KernelIdeal_ReferenceIdeal := by
  intro m ρ m' ρ' _ hagree
  refine ⟨fun c => Cert.KernelIdeal.Tail.result0 m c, fun c => Cert.KernelIdeal.Tail.result1 m c,
    Cert.KernelIdeal.Tail.run m ρ, ?_⟩
  refine (θ_run Cert.ReferenceIdeal.defs _ _).mono (fun _ h c =>
      ⟨(h c).1.trans ((Cert.ReferenceIdeal.Read.val_main_v45_eq m' c).trans ?_),
        (h c).2.1.trans ((Cert.ReferenceIdeal.Read.val_main_v43_eq _ _ _ _ _ _ _ _).trans ?_), (h c).2.2⟩)
    (Cert.ReferenceIdeal.Value.run (F := Ideal) m' ρ')
  · obtain ⟨h0, h1, h2, h3, h4, h5, h6, h7, h8⟩ := hagree c
    unfold Cert.ReferenceIdeal.Read.val_main_v45
    rw [Cert.ReferenceIdeal.RefValue.v44_eq, h0, h1, h2, h3, h4, h5, h6, h7, h8]
    rfl
  · obtain ⟨h0, h1, h2, h3, h4, h5, h6, h7, h8⟩ := hagree c
    funext i
    rw [Cert.ReferenceIdeal.RefValue.v43_apply, h0, h1, h2, h4, h5, h6, h7, h8]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
